-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S16x128 : Shape := ⟨2, ![16, 128]⟩
abbrev S8192x128 : Shape := ⟨2, ![8192, 128]⟩
abbrev S8x128 : Shape := ⟨2, ![8, 128]⟩
abbrev S1x128 : Shape := ⟨2, ![1, 128]⟩
abbrev S128 : Shape := ⟨1, ![128]⟩
abbrev S1 : Shape := ⟨1, ![1]⟩
abbrev S1x1 : Shape := ⟨2, ![1, 1]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .i32⟩
  | .hbm, ⟨4, _⟩ => ⟨S16x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S8x128, .f32⟩
  | .local _ .vmem, ⟨5, _⟩ => ⟨S8x128, .f32⟩
  | .local _ .vmem, ⟨6, _⟩ => ⟨S1x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_13 : BitVec 32 := 0#32
  let v30 : BitVec 1 := Scalar.cmpi .ne v29 c0_i32_13
  v30

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432_S262144x128 : S33554432.ShapeCasts S262144x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  reduces_S1x128_S1 : S1x128.Reduces [1] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .i32 = 32 ∨ (Rect.block (s := S262144x128) S8192x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S_, .f32⟩
  | .hbm, ⟨3, _⟩ => ⟨S33554432, .f32⟩
  | .hbm, ⟨4, _⟩ => ⟨S33554432, .f32⟩
  | .hbm, ⟨5, _⟩ => ⟨S33554432, .f32⟩
  | .hbm, ⟨6, _⟩ => ⟨S33554432, .f32⟩
  | .hbm, ⟨7, _⟩ => ⟨S_, .f32⟩
  | .hbm, ⟨8, _⟩ => ⟨S33554432, .f32⟩
  | .hbm, ⟨9, _⟩ => ⟨S33554432, .f32⟩
  | .hbm, ⟨10, _⟩ => ⟨S_, .f32⟩
  | .hbm, ⟨11, _⟩ => ⟨S33554432, .f32⟩
  | .hbm, ⟨12, _⟩ => ⟨S33554432, .f32⟩
  | .hbm, ⟨13, _⟩ => ⟨S_, .f32⟩
  | .hbm, ⟨14, _⟩ => ⟨S33554432, .f32⟩
  | .hbm, ⟨15, _⟩ => ⟨S33554432, .f32⟩
  | .hbm, ⟨16, _⟩ => ⟨S33554432, .f32⟩
  | .hbm, ⟨17, _⟩ => ⟨S33554432, .f32⟩
  | .hbm, ⟨18, _⟩ => ⟨S_, .f32⟩
  | .hbm, ⟨19, _⟩ => ⟨S33554432, .f32⟩
  | .hbm, ⟨20, _⟩ => ⟨S33554432, .f32⟩
  | .hbm, ⟨21, _⟩ => ⟨S_, .i32⟩
  | .hbm, ⟨22, _⟩ => ⟨S33554432, .i32⟩
  | .hbm, ⟨23, _⟩ => ⟨S33554432, .i1⟩
  | .hbm, ⟨24, _⟩ => ⟨S33554432, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.Pieces.lean ====
/-
  What one run of the kernel body leaves behind, case by case, as the body's own arithmetic.

  The body keeps a one-row accumulator in scratch memory. At a core's first grid point it stores a zero row,
  reads it back and adds the block's column sums (case A); at the other points it adds the block's column sums
  to what the point before left (cases B and C); at a core's last point (case C) it also writes the lane sum of
  the accumulator, broadcast over the whole output block. Each store covers its buffer whole, so what a buffer
  holds afterwards is the last store's value, and a load after a covering store reads that store's value.
  The statements hold for every float instance.
-/
import proofs.«133665_j76433237999935_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Case A (a core's first point): the accumulator ends at the zero row plus the block's column sums. -/
theorem scratch_A (c : Dev nD) (i : grid0.Coords) (a2 : Memref sig .tc .vmem S8192x128 .f32) (h2 : a2.IsWhole)
    (a3 : Memref sig .tc .vmem S8192x128 .i32) (h3 : a3.IsWhole) (a4 : Memref sig .tc .vmem S8x128 .f32) (h4 : a4.IsWhole)
    (a5 : Memref sig .tc .vmem S1x128 .f32) (h5 : a5.IsWhole) (hc0 : cond0_0 i) (hc1 : ¬cond0_1 i)
    (x0 : Vec F S8192x128 .f32) (x1 : Vec F S8192x128 .i32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x128) hz, View.readCov_unit_zero (S := S1x128) _ hz]
  simp only [View.readAt_eq_ld, h2.read_unread, h3.read_unread, View.ld_unit_zero (S := S8192x128) hz]

/-- Case B (a middle point): the accumulator ends at what it held plus the block's column sums. -/
theorem scratch_B (c : Dev nD) (i : grid0.Coords) (a2 : Memref sig .tc .vmem S8192x128 .f32) (h2 : a2.IsWhole)
    (a3 : Memref sig .tc .vmem S8192x128 .i32) (h3 : a3.IsWhole) (a4 : Memref sig .tc .vmem S8x128 .f32) (h4 : a4.IsWhole)
    (a5 : Memref sig .tc .vmem S1x128 .f32) (h5 : a5.IsWhole) (hc0 : ¬cond0_0 i) (hc1 : ¬cond0_1 i)
    (x0 : Vec F S8192x128 .f32) (x1 : Vec F S8192x128 .i32) (xs0 : Vec F S1x128 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero (S := S1x128) hz]
  simp only [View.readAt_eq_ld, h2.read_unread, h3.read_unread, h5.read_unread,
    View.ld_unit_zero (S := S8192x128) hz, View.ld_unit_zero (S := S1x128) hz]

/-- Case C (a core's last point): the accumulator as in case B, -/
theorem scratch_C (c : Dev nD) (i : grid0.Coords) (a2 : Memref sig .tc .vmem S8192x128 .f32) (h2 : a2.IsWhole)
    (a3 : Memref sig .tc .vmem S8192x128 .i32) (h3 : a3.IsWhole) (a4 : Memref sig .tc .vmem S8x128 .f32) (h4 : a4.IsWhole)
    (a5 : Memref sig .tc .vmem S1x128 .f32) (h5 : a5.IsWhole) (hc0 : ¬cond0_0 i) (hc1 : cond0_1 i)
    (x0 : Vec F S8192x128 .f32) (x1 : Vec F S8192x128 .i32) (xs0 : Vec F S1x128 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero (S := S1x128) hz]
  simp only [View.readAt_eq_ld, h2.read_unread, h3.read_unread, h5.read_unread,
    View.ld_unit_zero (S := S8192x128) hz, View.ld_unit_zero (S := S1x128) hz]

/-- and the output block: the lane sum of that accumulator, at every position of the block. -/
theorem out_C (c : Dev nD) (i : grid0.Coords) (a2 : Memref sig .tc .vmem S8192x128 .f32) (h2 : a2.IsWhole)
    (a3 : Memref sig .tc .vmem S8192x128 .i32) (h3 : a3.IsWhole) (a4 : Memref sig .tc .vmem S8x128 .f32) (h4 : a4.IsWhole)
    (a5 : Memref sig .tc .vmem S1x128 .f32) (h5 : a5.IsWhole) (hc0 : ¬cond0_0 i) (hc1 : cond0_1 i)
    (x0 : Vec F S8192x128 .f32) (x1 : Vec F S8192x128 .i32) (xs0 : Vec F S1x128 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero (S := S8x128) hz, View.readCov_unit_zero (S := S1x128) _ hz]
  simp only [View.readAt_eq_ld, h2.read_unread, h3.read_unread, h5.read_unread,
    View.ld_unit_zero (S := S8192x128) hz, View.ld_unit_zero (S := S1x128) hz]

end Cert.KernelIdeal.Pieces

end
-- ==== Proof.Spec.lean ====
/-
  The weighted binary cross-entropy loss, element by element, and its total over the 33,554,432 elements.

  One element with prediction `x` and label `t` costs `1 · (−log (x + ε))` when `t = 1` and
  `8 · (−log ((1 − x) + ε))` otherwise. The result of both programs is the total of these, divided by the
  number of elements. The total is a sum over the flat positions `k < 2^25`; the kernel reaches the same
  elements as `k = ((c·16 + i)·8192 + r)·128 + l` — core `c`, step `i` of that core, row `r` of the step's
  block, lane `l` — and adds them in that grouping. Sums on the extended reals commute and re-associate
  freely, so the two totals are equal with no finiteness assumption.
-/
import Idealize.ShloMosaic.PureOps.Ideal
import Idealize.ShloMosaic.PureOps.Ideal.Laws
import Idealize.ShloMosaic.Lib.ValueIdx

noncomputable section

open scoped BigOperators

namespace Cert.Bce

open Idealize.ShloMosaic Idealize.ShloMosaic.ValueIdx

/-- The flat arrays' shape. -/
abbrev Flat : Shape := ⟨1, ![33554432]⟩

/-- One element's loss: the positive branch weighted by 1, the negative branch by 8. -/
def elemLoss (x : EReal) (t : BitVec 32) : EReal :=
  Scalar.select (IntOp.cmpi .eq t 1#32)
    (Ideal.ofBits .f32 0x3F800000#32 * -(Ideal.log (x + Ideal.ofBits .f32 0x33D6BF95#32)))
    (Ideal.ofBits .f32 0x41000000#32
      * -(Ideal.log (Ideal.ofBits .f32 0x3F800000#32 - x + Ideal.ofBits .f32 0x33D6BF95#32)))

/-- The kernel selects the logarithm's argument and the weight first and negates by subtracting from zero:
    the same number, branch by branch. -/
theorem select_first (x : EReal) (t : BitVec 32) :
    Scalar.select (IntOp.cmpi .eq t 1#32) (Ideal.ofBits .f32 0x3F800000#32) (Ideal.ofBits .f32 0x41000000#32)
      * (Ideal.ofBits .f32 0x00000000#32
          - Ideal.log (Scalar.select (IntOp.cmpi .eq t 1#32) x (Ideal.ofBits .f32 0x3F800000#32 - x)
              + Ideal.ofBits .f32 0x33D6BF95#32))
      = elemLoss x t := by
  unfold elemLoss
  by_cases h : IntOp.cmpi .eq t 1#32 = 1#1
  · rw [h]; simp only [select_one, Ideal.ofBits_zero_f32, zero_sub]
  · rw [eq_zero_of_ne_one h]; simp only [select_zero, Ideal.ofBits_zero_f32, zero_sub]

/-- The loss of the element at flat position `n` (zero past the end, so that sums need no bound proofs). -/
def lossAt (x : Flat.Idx → EReal) (t : Flat.Idx → BitVec 32) (n : ℕ) : EReal :=
  if h : n < 33554432 then elemLoss (x (ix1 ⟨n, h⟩)) (t (ix1 ⟨n, h⟩)) else 0

theorem lossAt_of_lt (x : Flat.Idx → EReal) (t : Flat.Idx → BitVec 32) (n : ℕ) (h : n < 33554432) :
    lossAt x t n = elemLoss (x (ix1 ⟨n, h⟩)) (t (ix1 ⟨n, h⟩)) := dif_pos h

/-- The total loss. -/
def total (x : Flat.Idx → EReal) (t : Flat.Idx → BitVec 32) : EReal :=
  ∑ k : Fin 33554432, lossAt x t k.val

/-- Lane `l` of the column sums of the `p`-th block of 8192 rows. -/
def colSum (x : Flat.Idx → EReal) (t : Flat.Idx → BitVec 32) (p l : ℕ) : EReal :=
  ∑ r : Fin 8192, lossAt x t ((p * 8192 + r.val) * 128 + l)

/-- Lane `l` of a core's accumulator after grid point `n`: the column sums of the blocks of that core
    met so far (the accumulator restarts from zero at the points divisible by 16). -/
def accAt (x : Flat.Idx → EReal) (t : Flat.Idx → BitVec 32) (n l : ℕ) : EReal :=
  ∑ i ∈ Finset.range (n % 16 + 1), colSum x t (n / 16 * 16 + i) l

/-- A core's total: the lane sum of its accumulator after its last point. -/
def coreTotal (x : Flat.Idx → EReal) (t : Flat.Idx → BitVec 32) (c : ℕ) : EReal :=
  ∑ l : Fin 128, accAt x t (c * 16 + 15) l.val

theorem accAt_start (x : Flat.Idx → EReal) (t : Flat.Idx → BitVec 32) (n l : ℕ) (h : n % 16 = 0) :
    accAt x t n l = colSum x t n l := by
  unfold accAt
  rw [h, Finset.sum_range_one, Nat.add_zero, Nat.div_mul_cancel (Nat.dvd_of_mod_eq_zero h)]

theorem accAt_step (x : Flat.Idx → EReal) (t : Flat.Idx → BitVec 32) (n l : ℕ) (h : (n + 1) % 16 ≠ 0) :
    accAt x t (n + 1) l = accAt x t n l + colSum x t (n + 1) l := by
  unfold accAt
  have h1 : (n + 1) % 16 = n % 16 + 1 := by omega
  have h2 : (n + 1) / 16 = n / 16 := by omega
  have h3 : n / 16 * 16 + (n % 16 + 1) = n + 1 := by omega
  rw [h1, h2, Finset.sum_range_succ _ (n % 16 + 1), h3]

theorem accAt_last (x : Flat.Idx → EReal) (t : Flat.Idx → BitVec 32) (c l : ℕ) :
    accAt x t (c * 16 + 15) l = ∑ i : Fin 16, colSum x t (c * 16 + i.val) l := by
  unfold accAt
  have h1 : (c * 16 + 15) % 16 + 1 = 16 := by omega
  have h2 : (c * 16 + 15) / 16 * 16 = c * 16 := by omega
  rw [h1, h2, Finset.sum_range]

/-- Flat position from (core, lane, step, row), and back. -/
def splitEquiv : Fin 2 × Fin 128 × Fin 16 × Fin 8192 ≃ Fin 33554432 where
  toFun p := ⟨((p.1.val * 16 + p.2.2.1.val) * 8192 + p.2.2.2.val) * 128 + p.2.1.val, by
    have := p.1.isLt; have := p.2.1.isLt; have := p.2.2.1.isLt; have := p.2.2.2.isLt; omega⟩
  invFun k := (⟨k.val / 16777216, by have := k.isLt; omega⟩, ⟨k.val % 128, by omega⟩,
    ⟨k.val / 1048576 % 16, by omega⟩, ⟨k.val / 128 % 8192, by omega⟩)
  left_inv p := by
    obtain ⟨c, l, i, r⟩ := p
    have := c.isLt; have := l.isLt; have := i.isLt; have := r.isLt
    refine Prod.ext (Fin.ext ?_) (Prod.ext (Fin.ext ?_) (Prod.ext (Fin.ext ?_) (Fin.ext ?_))) <;>
      dsimp only <;> omega
  right_inv k := by
    apply Fin.ext
    have := k.isLt
    dsimp only
    omega

/-- The total, grouped as the kernel adds it. -/
theorem total_eq (x : Flat.Idx → EReal) (t : Flat.Idx → BitVec 32) :
    total x t = ∑ c : Fin 2, ∑ l : Fin 128, ∑ i : Fin 16, ∑ r : Fin 8192,
      lossAt x t (((c.val * 16 + i.val) * 8192 + r.val) * 128 + l.val) := by
  unfold total
  rw [← Equiv.sum_comp splitEquiv (fun k : Fin 33554432 => lossAt x t k.val)]
  simp only [Fintype.sum_prod_type]
  rfl

/-- The two cores' totals add up to the total. -/
theorem coreTotals_add (x : Flat.Idx → EReal) (t : Flat.Idx → BitVec 32) :
    coreTotal x t 0 + coreTotal x t 1 = total x t := by
  rw [total_eq, Fin.sum_univ_two]
  unfold coreTotal
  simp only [accAt_last, colSum]
  rfl

end Cert.Bce

end
-- ==== Proof.Payload.lean ====
/-
  The body's arithmetic read at one position, over the extended reals.

  The stored zero row is zero at every lane. The accumulator update adds, at lane `l`, the sum over the
  block's 8192 rows of the elements' losses in that lane (the reduction along the rows starts from zero, which
  adds nothing). The final value is, at every position of the output block, the sum of the accumulator's 128
  lanes. Each element's loss is computed with the logarithm's argument and the weight selected first, which is
  the two-branch loss of the specification.
-/
import proofs.«133665_j76433237999935_2_alg».proof.Proof.Gen.KernelIdeal.Skeleton
import proofs.«133665_j76433237999935_2_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen Cert.Bce

/-- A row of 128 viewed as a one-row matrix: position (0, l) is the row's position l. -/
theorem row_cast_apply (v : FVec Ideal S128 .f32) (h : S128.ShapeCasts S1x128) (l : Fin 128) :
    shapeCast S1x128 v h (ix2 (0 : Fin 1) l) = v (ix1 l) :=
  shapeCast_apply v h (ix2 (0 : Fin 1) l) (ix1 l) (by
    rw [Shape.rowMajor_val_one, Shape.rowMajor_val_two]; show l.val = 0 * 128 + l.val; omega)

/-- The sum along the rows of an 8192 × 128 block, at lane l. -/
theorem colsum_apply (v : FVec Ideal S8192x128 .f32) (h : S8192x128.Reduces [0] S128) (hφ : FKind.Formats .f32)
    (hacc : (0x00000000#32 : BitVec 32) = FKind.add.neutral .f32 hφ) (l : Fin 128) :
    multiReduction .add [0] S128 v 0x00000000#32 h hφ hacc (ix1 l) = ∑ r : Fin 8192, v (ix2 r l) := by
  refine (Ideal.multiReduction_add_single v 0x00000000#32 h hφ hacc (ix1 l)).trans ?_
  refine Finset.sum_congr rfl fun r _ => congrArg v ?_
  funext a
  apply Fin.ext
  match a with
  | ⟨0, _⟩ => rfl
  | ⟨1, _⟩ => rfl

/-- The sum along the lanes of a one-row matrix. -/
theorem lanesum_apply (v : FVec Ideal S1x128 .f32) (h : S1x128.Reduces [1] S1) (hφ : FKind.Formats .f32)
    (hacc : (0x00000000#32 : BitVec 32) = FKind.add.neutral .f32 hφ) :
    multiReduction .add [1] S1 v 0x00000000#32 h hφ hacc (ix1 (0 : Fin 1)) = ∑ l : Fin 128, v (ix2 (0 : Fin 1) l) := by
  refine (Ideal.multiReduction_add_single v 0x00000000#32 h hφ hacc (ix1 (0 : Fin 1))).trans ?_
  refine Finset.sum_congr rfl fun l _ => congrArg v ?_
  funext a
  apply Fin.ext
  match a with
  | ⟨0, _⟩ => rfl
  | ⟨1, _⟩ => rfl

/-- The zero row. -/
theorem zero_row_apply (j : S1x128.Idx) : k0_pay1 (F := Ideal) j = 0 := by
  unfold k0_pay1
  simp only [shapeCast_self]
  exact Ideal.ofBits_zero_f32

/-- The accumulator update at lane l: what it held plus the lane's column sum of the block's losses. -/
theorem update_apply (x : Vec Ideal S8192x128 .f32) (t : Vec Ideal S8192x128 .i32) (acc : Vec Ideal S1x128 .f32)
    (l : Fin 128) :
    k0_pay2 (F := Ideal) x t acc (ix2 (0 : Fin 1) l)
      = acc (ix2 (0 : Fin 1) l) + ∑ r : Fin 8192, elemLoss (x (ix2 r l)) (t (ix2 r l)) := by
  unfold k0_pay2
  simp only [shapeCast_self]
  refine (addf_apply _ _ _).trans (congrArg (fun z => acc (ix2 (0 : Fin 1) l) + z) ?_)
  refine (row_cast_apply _ _ l).trans ?_
  refine (colsum_apply _ _ _ _ l).trans ?_
  refine Finset.sum_congr rfl fun r _ => ?_
  exact select_first (x (ix2 r l)) (t (ix2 r l))

/-- The output value: the accumulator's lane sum, whatever the position in the block. -/
theorem lane_total_apply (acc : Vec Ideal S1x128 .f32) (j : S8x128.Idx) :
    k0_pay3 (F := Ideal) acc j = ∑ l : Fin 128, acc (ix2 (0 : Fin 1) l) := by
  unfold k0_pay3
  simp only [shapeCast_self]
  refine (broadcastTo_apply _ _ j (ix2 (0 : Fin 1) (0 : Fin 1)) ?_).trans ?_
  · intro a
    match a with
    | ⟨0, _⟩ => rfl
    | ⟨1, _⟩ => rfl
  refine (shapeCast_apply _ _ (ix2 (0 : Fin 1) (0 : Fin 1)) (ix1 (0 : Fin 1)) ?_).trans ?_
  · rw [Shape.rowMajor_val_one, Shape.rowMajor_val_two]; rfl
  exact lanesum_apply _ _ _ _

end Cert.KernelIdeal.Payload

end
-- ==== Proof.Accum.lean ====
/-
  The accumulator after each grid point, as a function of the argument arrays.

  The region sees the two flat arguments as 262144 × 128 matrices (a reshape: row R, lane l is flat position
  R·128 + l). Grid point t reads rows t·8192 … t·8192 + 8191 of both. So the loss of the element at row r,
  lane l of point t's blocks is the loss at flat position (t·8192 + r)·128 + l. By induction on the point, the
  accumulator's lane l holds after point n the column sums of the blocks its core has met so far: it restarts
  from the zero row at the points divisible by 16 and adds one block's column sums at each point.
-/
import proofs.«133665_j76433237999935_2_alg».proof.Proof.Pieces
import proofs.«133665_j76433237999935_2_alg».proof.Proof.Payload
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.Bce

variable (m : (ℓ : Loc nD τ sig) → Buf (Elt Ideal) ℓ)

/-- The predictions and the labels as launched. -/
abbrev X (c : Dev nD) : Flat.Idx → EReal := m ((c : Thread nD τ).loc main_arg0)
abbrev T (c : Dev nD) : Flat.Idx → BitVec 32 := m ((c : Thread nD τ).loc main_arg1)

/-- The region finds the predictions reshaped to 262144 × 128, -/
theorem entry_x (c : Dev nD) : (V m c main_v0 : S262144x128.Idx → EReal)
    = shapeCast S262144x128 (m ((c : Thread nD τ).loc main_arg0)) shapeCasts_S33554432_S262144x128 := by
  show StableHlo.after hostOps0 (fun b => m (c, b)) (Proc.devRef .tc main_v0) = _
  after_results
  rfl

/-- and the labels likewise. -/
theorem entry_t (c : Dev nD) : (V m c main_v1 : S262144x128.Idx → BitVec 32)
    = shapeCast S262144x128 (m ((c : Thread nD τ).loc main_arg1)) shapeCasts_S33554432_S262144x128 := by
  show StableHlo.after hostOps0 (fun b => m (c, b)) (Proc.devRef .tc main_v1) = _
  after_results
  rfl

/-- The printed index maps over the grid: point t reads block t of the rows; its output block is t / 16. -/
theorem index_maps : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 16 ∧ win0_2.index t (1 : Fin 2) = 0 :=
  (by decide +kernel : ∀ t : Fin grid0.N, _)

theorem flat_lt (t : Fin cfg0.N) (r : Fin 8192) (l : Fin 128) : (t.val * 8192 + r.val) * 128 + l.val < 33554432 := by
  have h := t.isLt
  have hN : cfg0.N = 32 := N_0
  have := r.isLt
  have := l.isLt
  omega

/-- Row r, lane l of point t's block of predictions is the flat position (t·8192 + r)·128 + l. -/
theorem x_block_apply (c : Dev nD) (t : Fin cfg0.N) (r : Fin 8192) (l : Fin 128) :
    (iblk m c 0 t : Vec Ideal S8192x128 .f32) (ix2 r l)
      = X m c (ix1 ⟨(t.val * 8192 + r.val) * 128 + l.val, flat_lt t r l⟩) := by
  unfold iblk
  rw [View.read_apply]
  show V m c main_v0 (((cfg0.win 0).blk t).view.emb (ix2 r l)) = _
  rw [entry_x]
  refine shapeCast_apply (s := S33554432) (t := S262144x128) _ _ _ (ix1 ⟨(t.val * 8192 + r.val) * 128 + l.val, flat_lt t r l⟩) ?_
  show ((⟨1, ![33554432]⟩ : Shape).rowMajor (ix1 ⟨(t.val * 8192 + r.val) * 128 + l.val, flat_lt t r l⟩)).val
    = ((⟨2, ![262144, 128]⟩ : Shape).rowMajor _).val
  rw [Shape.rowMajor_val_one, Shape.rowMajor_val_two]
  show (t.val * 8192 + r.val) * 128 + l.val
    = (win0_0.index t (0 : Fin 2) * 8192 + 1 * r.val) * 128 + (win0_0.index t (1 : Fin 2) * 128 + 1 * l.val)
  obtain ⟨e0, e1, -⟩ := index_maps t
  rw [e0, e1]
  omega

/-- The same for the labels. -/
theorem t_block_apply (c : Dev nD) (t : Fin cfg0.N) (r : Fin 8192) (l : Fin 128) :
    (iblk m c 1 t : Vec Ideal S8192x128 .i32) (ix2 r l)
      = T m c (ix1 ⟨(t.val * 8192 + r.val) * 128 + l.val, flat_lt t r l⟩) := by
  unfold iblk
  rw [View.read_apply]
  show V m c main_v1 (((cfg0.win 1).blk t).view.emb (ix2 r l)) = _
  rw [entry_t]
  refine shapeCast_apply (s := S33554432) (t := S262144x128) _ _ _ (ix1 ⟨(t.val * 8192 + r.val) * 128 + l.val, flat_lt t r l⟩) ?_
  show ((⟨1, ![33554432]⟩ : Shape).rowMajor (ix1 ⟨(t.val * 8192 + r.val) * 128 + l.val, flat_lt t r l⟩)).val
    = ((⟨2, ![262144, 128]⟩ : Shape).rowMajor _).val
  rw [Shape.rowMajor_val_one, Shape.rowMajor_val_two]
  show (t.val * 8192 + r.val) * 128 + l.val
    = (win0_1.index t (0 : Fin 2) * 8192 + 1 * r.val) * 128 + (win0_1.index t (1 : Fin 2) * 128 + 1 * l.val)
  obtain ⟨-, -, e0, e1, -⟩ := index_maps t
  rw [e0, e1]
  omega

/-- The column sums of point t's blocks are the specification's column sums of block t. -/
theorem block_colsum (c : Dev nD) (t : Fin cfg0.N) (l : Fin 128) :
    ∑ r : Fin 8192, elemLoss ((iblk m c 0 t : Vec Ideal S8192x128 .f32) (ix2 r l))
        ((iblk m c 1 t : Vec Ideal S8192x128 .i32) (ix2 r l))
      = colSum (X m c) (T m c) t.val l.val := by
  unfold colSum
  refine Finset.sum_congr rfl fun r _ => ?_
  rw [x_block_apply, t_block_apply, lossAt_of_lt _ _ _ (flat_lt t r l)]

/-- What the accumulator holds after point n. -/
theorem scratch_eq (c : Dev nD) : ∀ (n : ℕ) (h : n < cfg0.N) (l : Fin 128),
    (outsAt0 m c n h).2 (ix2 (0 : Fin 1) l) = accAt (X m c) (T m c) n l.val
  | 0, h, l => by
    have e := outsAt0_A m c ⟨0, h⟩ (Nat.zero_mod _) (by show ¬(0 % 16 = 15); decide)
    rw [show outsAt0 m c 0 h = outsAt0 m c (⟨0, h⟩ : Fin cfg0.N).val (⟨0, h⟩ : Fin cfg0.N).isLt from rfl, e]
    dsimp only
    rw [Pieces.scratch_A (F := Ideal) c (grid0.coords ⟨0, h⟩) (ms0_0 ⟨0, h⟩) (hs0_0 ⟨0, h⟩) (ms0_1 ⟨0, h⟩)
      (hs0_1 ⟨0, h⟩) (ms0_2 ⟨0, h⟩) (hs0_2 ⟨0, h⟩) scM0_0 (Memref.isWhole_whole _) _ _
      (iblk m c 0 ⟨0, h⟩) (iblk m c 1 ⟨0, h⟩)]
    rw [Payload.update_apply, Payload.zero_row_apply, zero_add, block_colsum, accAt_start _ _ _ _ (Nat.zero_mod _)]
  | n + 1, h, l => by
    have hN : cfg0.N = 32 := N_0
    have ih := scratch_eq c n (Nat.lt_of_succ_lt h) l
    by_cases h0 : (n + 1) % 16 = 0
    · have h1 : ¬(n + 1) % 16 = 15 := by omega
      have e := outsAt0_A m c ⟨n + 1, h⟩ h0 h1
      rw [show outsAt0 m c (n + 1) h = outsAt0 m c (⟨n + 1, h⟩ : Fin cfg0.N).val (⟨n + 1, h⟩ : Fin cfg0.N).isLt from rfl, e]
      dsimp only
      rw [Pieces.scratch_A (F := Ideal) c (grid0.coords ⟨n + 1, h⟩) (ms0_0 ⟨n + 1, h⟩) (hs0_0 ⟨n + 1, h⟩)
        (ms0_1 ⟨n + 1, h⟩) (hs0_1 ⟨n + 1, h⟩) (ms0_2 ⟨n + 1, h⟩) (hs0_2 ⟨n + 1, h⟩) scM0_0 (Memref.isWhole_whole _) _ _
        (iblk m c 0 ⟨n + 1, h⟩) (iblk m c 1 ⟨n + 1, h⟩)]
      rw [Payload.update_apply, Payload.zero_row_apply, zero_add, block_colsum, accAt_start _ _ _ _ h0]
    · by_cases h1 : (n + 1) % 16 = 15
      · have e := outsAt0_C m c ⟨n + 1, h⟩ h0 h1
        rw [show outsAt0 m c (n + 1) h = outsAt0 m c (⟨n + 1, h⟩ : Fin cfg0.N).val (⟨n + 1, h⟩ : Fin cfg0.N).isLt from rfl, e]
        dsimp only
        rw [Pieces.scratch_C (F := Ideal) c (grid0.coords ⟨n + 1, h⟩) (ms0_0 ⟨n + 1, h⟩) (hs0_0 ⟨n + 1, h⟩)
          (ms0_1 ⟨n + 1, h⟩) (hs0_1 ⟨n + 1, h⟩) (ms0_2 ⟨n + 1, h⟩) (hs0_2 ⟨n + 1, h⟩) scM0_0 (Memref.isWhole_whole _) _ _
          (iblk m c 0 ⟨n + 1, h⟩) (iblk m c 1 ⟨n + 1, h⟩) (outsAt0 m c (n + 1 - 1) _).2]
        rw [Payload.update_apply, block_colsum, accAt_step _ _ _ _ h0]
        exact congrArg (fun z => z + colSum (X m c) (T m c) (n + 1) l.val) ih
      · have e := outsAt0_B m c ⟨n + 1, h⟩ h0 h1
        rw [show outsAt0 m c (n + 1) h = outsAt0 m c (⟨n + 1, h⟩ : Fin cfg0.N).val (⟨n + 1, h⟩ : Fin cfg0.N).isLt from rfl, e]
        dsimp only
        rw [Pieces.scratch_B (F := Ideal) c (grid0.coords ⟨n + 1, h⟩) (ms0_0 ⟨n + 1, h⟩) (hs0_0 ⟨n + 1, h⟩)
          (ms0_1 ⟨n + 1, h⟩) (hs0_1 ⟨n + 1, h⟩) (ms0_2 ⟨n + 1, h⟩) (hs0_2 ⟨n + 1, h⟩) scM0_0 (Memref.isWhole_whole _) _ _
          (iblk m c 0 ⟨n + 1, h⟩) (iblk m c 1 ⟨n + 1, h⟩) (outsAt0 m c (n + 1 - 1) _).2]
        rw [Payload.update_apply, block_colsum, accAt_step _ _ _ _ h0]
        exact congrArg (fun z => z + colSum (X m c) (T m c) (n + 1) l.val) ih

end Cert.KernelIdeal.Accum

end
-- ==== Proof.Result.lean ====
/-
  The kernel's result.

  A core's output block is written back once, after the core's last grid point, and holds at every position
  the lane sum of that core's accumulator: the core's total. The two blocks tile the 16 × 128 output array,
  so row R of it holds the total of core R / 8. The host lines after the region take the array's entries
  (0, 0) and (8, 0), add them and divide by 2^25: the two cores' totals add up to the total loss, so the
  result is the mean.
-/
import proofs.«133665_j76433237999935_2_alg».proof.Proof.Accum

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Bce Cert.KernelIdeal.Accum

variable (m : (ℓ : Loc nD τ sig) → Buf (Elt Ideal) ℓ) (ρ : Dev nD → PrngReg)

/-- The mean loss, as the contents of a scalar buffer. -/
abbrev mean (c : Dev nD) : S_.Idx → EReal :=
  fun _ => Ideal.div (total (X m c) (T m c)) (Ideal.ofBits .f32 0x4C000000#32)

/-- The output array after the run: row R holds the total of core R / 8 in every lane. -/
abbrev outArray (c : Dev nD) : S16x128.Idx → EReal := fun i => coreTotal (X m c) (T m c) ((i 0).val / 8)

/-- At a core's last point the output block is the lane sum of the accumulator the point leaves. -/
theorem block_eq (c : Dev nD) (t : Fin cfg0.N) (h0 : ¬t.val % 16 = 0) (h15 : t.val % 16 = 15) :
    (outsAt0 m c t.val t.isLt).1 = k0_pay3 (F := Ideal) (outsAt0 m c t.val t.isLt).2 := by
  rw [outsAt0_C m c t h0 h15]
  dsimp only
  rw [Pieces.out_C (F := Ideal) c (grid0.coords t) (ms0_0 t) (hs0_0 t) (ms0_1 t) (hs0_1 t) (ms0_2 t) (hs0_2 t) scM0_0 (Memref.isWhole_whole _) _ _ (iblk m c 0 t) (iblk m c 1 t) (outsAt0 m c (t.val - 1) _).2,
    Pieces.scratch_C (F := Ideal) c (grid0.coords t) (ms0_0 t) (hs0_0 t) (ms0_1 t) (hs0_1 t) (ms0_2 t) (hs0_2 t) scM0_0 (Memref.isWhole_whole _) _ _ (iblk m c 0 t) (iblk m c 1 t) (outsAt0 m c (t.val - 1) _).2]

/-- What a core's last point writes back is its block of the output array. -/
theorem flushed_eq (c : Dev nD) (t : Fin cfg0.N) (hf : (cfg0.win 2).flush t = true) :
    (dats m 0 c).flushed 2 t = ((cfg0.win 2).blk t).view.read (Elt Ideal) (outArray m c) := by
  have hN : cfg0.N = 32 := N_0
  have h15 : t.val % 16 = 15 := (flush0_2 t).mp hf
  have h0 : ¬t.val % 16 = 0 := by omega
  show (cfg0.win 2).cut (grid0.coords t) ((dats m 0 c).after 2 t) = _
  rw [after0_2, block_eq m c t h0 h15]
  funext j
  show k0_pay3 (F := Ideal) (outsAt0 m c t.val t.isLt).2 j = outArray m c (((cfg0.win 2).blk t).view.emb j)
  rw [Payload.lane_total_apply]
  simp only [scratch_eq]
  have hrow : ((((cfg0.win 2).blk t).view.emb j) 0).val / 8 * 16 + 15 = t.val := by
    show (win0_2.index t (0 : Fin 2) * 8 + 1 * (j 0).val) / 8 * 16 + 15 = t.val
    obtain ⟨-, -, -, -, e0, -⟩ := index_maps t
    have hj : (j 0).val < 8 := (j 0).isLt
    rw [e0]
    omega
  show _ = ∑ l : Fin 128, accAt (X m c) (T m c) (((((cfg0.win 2).blk t).view.emb j) 0).val / 8 * 16 + 15) l.val
  rw [hrow]

/-- An index of the output array is in point t's block iff each coordinate is in the block's range. -/
theorem mem_blk (t : Fin cfg0.N) (i : S16x128.Idx) :
    i ∈ ((cfg0.win 2).blk t).view.set ↔ ∀ a : Fin 2, win0_2.index t a * S8x128.size a ≤ (i a).val
      ∧ (i a).val < win0_2.index t a * S8x128.size a + S8x128.size a := by
  show i ∈ ((View.whole main_v2).slice (win0_2.rect t)).set ↔ _
  rw [View.set_slice_whole, Rect.mem_set_unit]
  exact Iff.rfl

/-- Every position of the output array is in the block of a point that writes back: row R is covered by the
    last point of core R / 8. -/
theorem covered (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 32 := N_0
  have hlt : (i 0).val / 8 * 16 + 15 < cfg0.N := by omega
  refine ⟨⟨(i 0).val / 8 * 16 + 15, hlt⟩, (flush0_2 _).mpr (by show ((i 0).val / 8 * 16 + 15) % 16 = 15; omega), ?_⟩
  rw [mem_blk]
  obtain ⟨-, -, -, -, e0, e1⟩ := index_maps ⟨(i 0).val / 8 * 16 + 15, hlt⟩
  have e0' : win0_2.index ⟨(i 0).val / 8 * 16 + 15, hlt⟩ (0 : Fin 2) = ((i 0).val / 8 * 16 + 15) / 16 := e0
  intro a
  match a with
  | ⟨0, _⟩ =>
    show win0_2.index ⟨(i 0).val / 8 * 16 + 15, hlt⟩ (0 : Fin 2) * 8 ≤ (i 0).val
      ∧ (i 0).val < win0_2.index ⟨(i 0).val / 8 * 16 + 15, hlt⟩ (0 : Fin 2) * 8 + 8
    rw [e0']
    omega
  | ⟨1, _⟩ =>
    show win0_2.index ⟨(i 0).val / 8 * 16 + 15, hlt⟩ (1 : Fin 2) * 128 ≤ (i 1).val
      ∧ (i 1).val < win0_2.index ⟨(i 0).val / 8 * 16 + 15, hlt⟩ (1 : Fin 2) * 128 + 128
    rw [e1]
    omega

/-- The output array after the run. -/
theorem final_out (c : Dev nD) : (dats m 0 c).arrAt 2 cfg0.N = outArray m c :=
  (dats m 0 c).arrAt_eq_of_cover 2 (outArray m c) (flushed_eq m c) covered

/-- A 1 × 1 matrix viewed as a scalar. -/
theorem scalar_cast_apply (v : FVec Ideal S1x1 .f32) (h : S1x1.ShapeCasts S_) (i : S_.Idx) :
    shapeCast S_ v h i = v (ix2 (0 : Fin 1) (0 : Fin 1)) :=
  shapeCast_apply (s := S1x1) (t := S_) v h i (ix2 (0 : Fin 1) (0 : Fin 1)) (by
    show ((⟨2, ![1, 1]⟩ : Shape).rowMajor (ix2 (0 : Fin 1) (0 : Fin 1))).val = (Shape.rowMajorPi _ i).val
    rw [Shape.rowMajor_val_two, Shape.rowMajorPi_zero]
    rfl)

/-- The host lines after the region: entries (0, 0) and (8, 0) of the output array, added, over 2^25. -/
theorem tail_eq (c : Dev nD) :
    Pipeline.afterTail₀ cfgs (dats m) 0 (V0 m) [hostOps1] c main_v8 = mean m c := by
  unfold Pipeline.afterTail₀
  show StableHlo.after hostOps1 _ (Proc.devRef .tc main_v8) = _
  after_results
  rw [(Pipeline.withArrays_arr spec0 launch0.win.arr_inj c _ _ 2).trans (final_out m c)]
  funext i
  show Ideal.div (shapeCast S_ (extractStridedSlice S1x1 ![0, 0] (outArray m c) slices_S16x128_S1x1_0_0) shapeCasts_S1x1_S_ i
      + shapeCast S_ (extractStridedSlice S1x1 ![8, 0] (outArray m c) slices_S16x128_S1x1_8_0) shapeCasts_S1x1_S_ i)
      (Ideal.ofBits .f32 0x4C000000#32) = Ideal.div (total (X m c) (T m c)) (Ideal.ofBits .f32 0x4C000000#32)
  rw [scalar_cast_apply, scalar_cast_apply,
    extractStridedSlice_apply ![0, 0] (outArray m c) slices_S16x128_S1x1_0_0 (ix2 (0 : Fin 1) (0 : Fin 1))
      (ix2 (⟨0, by decide⟩ : Fin 16) (⟨0, by decide⟩ : Fin 128)) (fun a => by match a with | ⟨0, _⟩ => rfl | ⟨1, _⟩ => rfl),
    extractStridedSlice_apply ![8, 0] (outArray m c) slices_S16x128_S1x1_8_0 (ix2 (0 : Fin 1) (0 : Fin 1))
      (ix2 (⟨8, by decide⟩ : Fin 16) (⟨0, by decide⟩ : Fin 128)) (fun a => by match a with | ⟨0, _⟩ => rfl | ⟨1, _⟩ => rfl)]
  show Ideal.div (coreTotal (X m c) (T m c) (0 / 8) + coreTotal (X m c) (T m c) (8 / 8)) _ = _
  rw [show (0 : ℕ) / 8 = 0 from rfl, show (8 : ℕ) / 8 = 1 from rfl, coreTotals_add]

/-- The kernel's run: the result buffer ends at the mean loss, the arguments unchanged. -/
theorem run : θ_run defs (onTc (τ := τ) (main (F := Ideal))) ⟨m, fun _ => 0, ρ⟩ fun r => ∀ c : Dev nD,
      r.2.mem ((c.tc : Thread nD τ).loc main_v8) = mean m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.RefValue.lean ====
/-
  The reference's result is the total loss divided by the number of elements.

  At each flat position the reference computes both branches — 1 · (−log (x + ε)) and 8 · (−log ((1 − x) + ε)) —
  and selects by the label: the element's loss. It sums these from zero over all positions and divides by 2^25.
-/
import proofs.«133665_j76433237999935_2_alg».proof.Proof.Gen.ReferenceIdeal.Read
import proofs.«133665_j76433237999935_2_alg».proof.Proof.Spec
import Idealize.ShloMosaic.Lib.ValueIdx

noncomputable section

open scoped BigOperators
open Idealize.ShloMosaic Idealize.ShloMosaic.ValueIdx

namespace Cert.ReferenceIdeal.RefValue

open Cert.ReferenceIdeal Cert.ReferenceIdeal.Read Cert.Bce

/-- A rank-1 index is its one coordinate … -/
def idxEquiv1 {n : Nat} : (⟨1, ![n]⟩ : Shape).Idx ≃ Fin n where
  toFun i := i 0
  invFun a := ix1 a
  left_inv i := (eq_ix1 i).symm
  right_inv _ := rfl

/-- … so a sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The total as a sum of the elements' losses. -/
theorem total_eq_sum (x : Flat.Idx → EReal) (t : Flat.Idx → BitVec 32) :
    total x t = ∑ k : Fin 33554432, elemLoss (x (ix1 k)) (t (ix1 k)) :=
  Finset.sum_congr rfl fun k _ => lossAt_of_lt x t k.val k.isLt

/-- The reference's selected value at flat position k is the element's loss. -/
theorem selected_apply (x0 : (⟨S33554432, .f32⟩ : BufTy).Contents (Elt Ideal)) (x1 : (⟨S33554432, .i32⟩ : BufTy).Contents (Elt Ideal))
    (k : Fin 33554432) : val_main_v16 (F := Ideal) x0 x1 (ix1 k) = elemLoss (x0 (ix1 k)) (x1 (ix1 k)) := by
  rw [val_main_v16_apply, val_main_v15_apply, val_main_v14_apply, val_main_c_apply, val_main_v5_apply, val_main_v4_apply,
    val_main_cst_0_apply, val_main_v3_apply, val_main_v2_apply, val_main_v1_apply, val_main_v0_apply, val_main_cst_apply,
    val_main_v13_apply, val_main_v12_apply, val_main_cst_3_apply, val_main_v11_apply, val_main_v10_apply, val_main_v9_apply,
    val_main_v7_apply, val_main_v6_apply, val_main_cst_1_apply, val_main_v8_apply, val_main_cst_2_apply]
  rfl

/-- The reference's result. -/
theorem result_eq (x0 : (⟨S33554432, .f32⟩ : BufTy).Contents (Elt Ideal)) (x1 : (⟨S33554432, .i32⟩ : BufTy).Contents (Elt Ideal)) :
    val_main_v18 (F := Ideal) x0 x1 = fun _ => Ideal.div (total x0 x1) (Ideal.ofBits .f32 0x4C000000#32) := by
  funext i
  show val_main_v18 (F := Ideal) x0 x1 i = Ideal.div (total x0 x1) (Ideal.ofBits .f32 0x4C000000#32)
  rw [val_main_v18_apply, val_main_v17_apply, val_main_cst_4_apply, val_main_cst_5_apply, sum_idx1, total_eq_sum]
  simp only [selected_apply, Ideal.hostDivf_def, Ideal.ofBits_def, Ideal.ofBits_zero_f32, zero_add]

end Cert.ReferenceIdeal.RefValue

end
-- ==== Proof.lean ====
/-
  The kernel computes the mean weighted binary cross-entropy loss of 33,554,432 predictions against their
  labels, and so does the reference.

  Per element both take 1 · (−log (x + ε)) for a positive label and 8 · (−log ((1 − x) + ε)) otherwise: the
  reference computes both branches and selects, the kernel selects the logarithm's argument and the weight
  first and negates by subtracting from zero. The reference sums the elements from zero in one reduction and
  divides by 2^25. The kernel views the arrays as 262144 rows of 128 lanes; each of two cores walks 16 blocks of
  8192 rows, adds every block's column sums into a one-row accumulator, and after its last block writes the
  accumulator's lane sum over its output block; the host adds the two cores' values and divides by 2^25. On
  the extended reals addition is commutative and associative, so the two groupings of the same 2^25 terms
  agree, whatever the inputs: the precondition is not used. The ideal pass rewrote nothing, so the kernel's
  idealization is its own text.
-/
import proofs.«133665_j76433237999935_2_alg».proof.Defs
import proofs.«133665_j76433237999935_2_alg».proof.Proof.Gen.Kernel
import proofs.«133665_j76433237999935_2_alg».proof.Proof.Gen.Kernel.Skeleton
import proofs.«133665_j76433237999935_2_alg».proof.Proof.Gen.Kernel.Launch
import proofs.«133665_j76433237999935_2_alg».proof.Proof.Gen.Kernel.Points
import proofs.«133665_j76433237999935_2_alg».proof.Proof.Gen.Kernel.Frame
import proofs.«133665_j76433237999935_2_alg».proof.Proof.Gen.KernelIdeal
import proofs.«133665_j76433237999935_2_alg».proof.Proof.Gen.KernelIdeal.Skeleton
import proofs.«133665_j76433237999935_2_alg».proof.Proof.Gen.KernelIdeal.Launch
import proofs.«133665_j76433237999935_2_alg».proof.Proof.Gen.KernelIdeal.Points
import proofs.«133665_j76433237999935_2_alg».proof.Proof.Gen.KernelIdeal.Frame
import proofs.«133665_j76433237999935_2_alg».proof.Proof.Gen.ReferenceIdeal
import proofs.«133665_j76433237999935_2_alg».proof.Proof.Gen.Pre_finite_inputs
import proofs.«133665_j76433237999935_2_alg».proof.Proof.Gen.ReferenceIdeal.Run
import proofs.«133665_j76433237999935_2_alg».proof.Proof.Gen.ReferenceIdeal.Read
import proofs.«133665_j76433237999935_2_alg».proof.Proof.Result
import proofs.«133665_j76433237999935_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the mean loss of arguments that agree. -/
theorem algebraic : Cert.algebraic_KernelIdeal_ReferenceIdeal := by
  intro m ρ m' ρ' _ hagree
  refine ⟨fun c => Cert.KernelIdeal.Result.mean m c, Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
